-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S20000000 : Shape := ⟨1, ![20000000]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S20000000 : S_.BroadcastsInDim S20000000 (![] : Fin 0 → Fin S20000000.rank)
  reducesTo_S20000000_S_d0 : S20000000.ReducesTo [0] S_

variable [Facts]

def fn {F : FTy → Type} [FloatOps F] (main_arg0 : FVec F S1000000 .f32) (main_arg1 : FVec F S20000000 .f32) (main_arg2 : IVec S20000000 32) (main_arg3 : IVec S20000000 32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S20000000 .f32 := Host.absf main_arg1
  let main_cst_0 : FVec F S_ .f32 := constant S_ .f32 0x7F800000#32
  let main_v5 : FVec F S20000000 .f32 := broadcastInDim S20000000 ![] bcast_S_S20000000 main_cst_0
  let main_v6 : IVec S20000000 1 := cmpf .olt main_v4 main_v5
  let main_c_1 : IVec S_ 1 := constantI S_ 1 1#1
  let main_v7 : IVec S_ 1 := (fun x v => Host.reduce IntOp.andi x v reducesTo_S20000000_S_d0 h_S_) main_v6 main_c_1
  let main_v8 : IVec S_ 1 := andi main_v3 main_v7
  main_v8
-- ==== Kernel.lean ====
abbrev S1000000 : Shape := ⟨1, ![1000000]⟩
abbrev S20000000 : Shape := ⟨1, ![20000000]⟩
abbrev S_ : Shape := ⟨0, ![]⟩
abbrev S20000000x1 : Shape := ⟨2, ![20000000, 1]⟩
abbrev S4096 : Shape := ⟨1, ![4096]⟩
abbrev S32x128 : Shape := ⟨2, ![32, 128]⟩
abbrev S32 : Shape := ⟨1, ![32]⟩
abbrev S32x1 : Shape := ⟨2, ![32, 1]⟩
abbrev S1 : Shape := ⟨1, ![1]⟩
abbrev S1x1 : Shape := ⟨2, ![1, 1]⟩

abbrev nBuf : Space → Nat
  | .hbm => 21
  | .vmem => 2
  | .smem => 0
  | _ => 0

abbrev bufTy : (tb : Table) → Fin (tcTables nBuf tb) → BufTy
  | .hbm, ⟨0, _⟩ => ⟨S1000000, .f32⟩
  | .hbm, ⟨1, _⟩ => ⟨S20000000, .f32⟩
  | .hbm, ⟨2, _⟩ => ⟨S20000000, .i32⟩
  | .hbm, ⟨3, _⟩ => ⟨S20000000, .i32⟩
  | .hbm, ⟨4, _⟩ => ⟨S_, .i32⟩
  | .hbm, ⟨5, _⟩ => ⟨S20000000, .i32⟩
  | .hbm, ⟨6, _⟩ => ⟨S20000000, .i1⟩
  | .hbm, ⟨7, _⟩ => ⟨S_, .i32⟩
  | .hbm, ⟨8, _⟩ => ⟨S20000000, .i32⟩
  | .hbm, ⟨9, _⟩ => ⟨S20000000, .i32⟩
  | .hbm, ⟨10, _⟩ => ⟨S20000000, .i32⟩
  | .hbm, ⟨11, _⟩ => ⟨S20000000x1, .i32⟩
  | .hbm, ⟨12, _⟩ => ⟨S20000000, .f32⟩
  | .hbm, ⟨13, _⟩ => ⟨S20000000, .f32⟩
  | .hbm, ⟨14, _⟩ => ⟨S_, .f32⟩
  | .hbm, ⟨15, _⟩ => ⟨S4096, .f32⟩
  | .hbm, ⟨16, _⟩ => ⟨S20000000x1, .i32⟩
  | .hbm, ⟨17, _⟩ => ⟨S4096, .f32⟩
  | .hbm, ⟨18, _⟩ => ⟨S32x128, .f32⟩
  | .hbm, ⟨19, _⟩ => ⟨S32x128, .f32⟩
  | .hbm, ⟨20, _⟩ => ⟨S4096, .f32⟩
  | .local _ .vmem, ⟨0, _⟩ => ⟨S32x128, .f32⟩
  | .local _ .vmem, ⟨1, _⟩ => ⟨S32x128, .f32⟩
  | _, _ => ⟨S1000000, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  bcast_S_S20000000 : S_.BroadcastsInDim S20000000 (![] : Fin 0 → Fin S20000000.rank)
  bcast_S20000000_S20000000x1_0 : S20000000.BroadcastsInDim S20000000x1 (![0] : Fin 1 → Fin S20000000x1.rank)
  bcast_S_S4096 : S_.BroadcastsInDim S4096 (![] : Fin 0 → Fin S4096.rank)
  shapeCasts_S4096_S32x128 : S4096.ShapeCasts S32x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  reduces_S32x128_S32 : S32x128.Reduces [1] S32
  shapeCasts_S32_S32x1 : S32.ShapeCasts S32x1
  reduces_S32x1_S1 : S32x1.Reduces [0] S1
  shapeCasts_S1_S1x1 : S1.ShapeCasts S1x1
  broadcasts_S1x1_S32x128 : S1x1.Broadcasts S32x128
  shapeCasts_S32x128_S4096 : S32x128.ShapeCasts S4096
  gather_S1000000_S20000000x1_S20000000_n_0_n_n_0_1_1_wf : GatherDims.WF S1000000 S20000000x1 S20000000 [] [0] [] [0] [] 1 ![1]
  scatter_S4096_S20000000x1_S20000000_n_0_0_1_wf : ScatterDims.WF S4096 S20000000x1 S20000000 [] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S32x128.size a
  hwx0_0 : ∀ i : grid0.Coords, EltTy.bits .f32 = 32 ∨ (Rect.block (s := S32x128) S32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)

variable [Facts₀]

def gather_S1000000_S20000000x1_S20000000_n_0_n_n_0_1_1 : GatherDims S1000000 S20000000x1 S20000000 where
  offsetDims := []
  collapsedSliceDims := [0]
  operandBatchingDims := []
  startIndicesBatchingDims := []
  startIndexMap := [0]
  indexVectorDim := 1
  sliceSizes := ![1]
  wf := gather_S1000000_S20000000x1_S20000000_n_0_n_n_0_1_1_wf
def scatter_S4096_S20000000x1_S20000000_n_0_0_1 : ScatterDims S4096 S20000000x1 S20000000 where
  updateWindowDims := []
  insertedWindowDims := [0]
  scatterDimsToOperandDims := [0]
  indexVectorDim := 1
  wf := scatter_S4096_S20000000x1_S20000000_n_0_0_1_wf

abbrev win0_0 : Pipeline.Window sig grid0 :=
  Pipeline.Window.ofSpec (Memref.whole main_v11) S32x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v12) S32x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1000000 : Shape := ⟨1, ![1000000]⟩
abbrev S20000000 : Shape := ⟨1, ![20000000]⟩
abbrev S_ : Shape := ⟨0, ![]⟩
abbrev S20000000x1 : Shape := ⟨2, ![20000000, 1]⟩
abbrev S4096 : Shape := ⟨1, ![4096]⟩
abbrev S1 : Shape := ⟨1, ![1]⟩

abbrev nBuf : Space → Nat
  | .hbm => 39
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S20000000, .f32⟩
  | .hbm, ⟨2, _⟩ => ⟨S20000000, .i32⟩
  | .hbm, ⟨3, _⟩ => ⟨S20000000, .i32⟩
  | .hbm, ⟨4, _⟩ => ⟨S_, .i32⟩
  | .hbm, ⟨5, _⟩ => ⟨S20000000, .i32⟩
  | .hbm, ⟨6, _⟩ => ⟨S20000000, .i1⟩
  | .hbm, ⟨7, _⟩ => ⟨S_, .i32⟩
  | .hbm, ⟨8, _⟩ => ⟨S20000000, .i32⟩
  | .hbm, ⟨9, _⟩ => ⟨S20000000, .i32⟩
  | .hbm, ⟨10, _⟩ => ⟨S20000000, .i32⟩
  | .hbm, ⟨11, _⟩ => ⟨S20000000x1, .i32⟩
  | .hbm, ⟨12, _⟩ => ⟨S20000000, .f32⟩
  | .hbm, ⟨13, _⟩ => ⟨S20000000, .f32⟩
  | .hbm, ⟨14, _⟩ => ⟨S_, .f32⟩
  | .hbm, ⟨15, _⟩ => ⟨S4096, .f32⟩
  | .hbm, ⟨16, _⟩ => ⟨S20000000x1, .i32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S4096, .f32⟩
  | .hbm, ⟨38, _⟩ => ⟨S4096, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S20000000 : S_.BroadcastsInDim S20000000 (![] : Fin 0 → Fin S20000000.rank)
  bcast_S20000000_S20000000x1_0 : S20000000.BroadcastsInDim S20000000x1 (![0] : Fin 1 → Fin S20000000x1.rank)
  bcast_S_S4096 : S_.BroadcastsInDim S4096 (![] : Fin 0 → Fin S4096.rank)
  reducesTo_S4096_S_d0 : S4096.ReducesTo [0] S_
  h_S_ : 0 < S_.numel
  bcast_S_S1 : S_.BroadcastsInDim S1 (![] : Fin 0 → Fin S1.rank)
  bcast_S1_S4096_0 : S1.BroadcastsInDim S4096 (![0] : Fin 1 → Fin S4096.rank)
  gather_S1000000_S20000000x1_S20000000_n_0_n_n_0_1_1_wf : GatherDims.WF S1000000 S20000000x1 S20000000 [] [0] [] [0] [] 1 ![1]
  scatter_S4096_S20000000x1_S20000000_n_0_0_1_wf : ScatterDims.WF S4096 S20000000x1 S20000000 [] [0] [0] 1

variable [Facts₀]

def gather_S1000000_S20000000x1_S20000000_n_0_n_n_0_1_1 : GatherDims S1000000 S20000000x1 S20000000 where
  offsetDims := []
  collapsedSliceDims := [0]
  operandBatchingDims := []
  startIndicesBatchingDims := []
  startIndexMap := [0]
  indexVectorDim := 1
  sliceSizes := ![1]
  wf := gather_S1000000_S20000000x1_S20000000_n_0_n_n_0_1_1_wf
def scatter_S4096_S20000000x1_S20000000_n_0_0_1 : ScatterDims S4096 S20000000x1 S20000000 where
  updateWindowDims := []
  insertedWindowDims := [0]
  scatterDimsToOperandDims := [0]
  indexVectorDim := 1
  wf := scatter_S4096_S20000000x1_S20000000_n_0_0_1_wf

class Facts : Prop extends Facts₀ where

variable [Facts]
-- ==== Proof.LibNormExp.lean ====
/-
  The normalised exponentials of a finite family of extended reals — each entry's exponential after the
  family's supremum is subtracted, divided by the sum of those exponentials — as ONE function of the family,
  and the three facts that let two differently arranged computations of it meet:

  * it does not see how the family is indexed: along a bijection of index types the supremum and the sum are
    the same, so the value at an index is the value at its image (`normExp_comp_equiv`);
  * a maximum folded from `⊥` over all the indices of a finite type is the family's supremum
    (`fold_max_bot`), and a supremum over a rank-2 index set is the supremum over the rows of the
    suprema along each row (`iSup_idx2`);
  * a sum started at `0` is the sum (`zero_add`), and a sum over a rank-2 index set is the double sum
    (the library's `sum_idx2`);
  * a family recast to another shape, normalised there and recast back is the family normalised in place
    (`shapeCast_normExp_shapeCast`).

  Only commutativity and associativity of `max` and `+` on the extended reals are used: no entry needs to
  be finite.
-/
import Idealize.ShloMosaic.PureOps.Ideal
import Idealize.ShloMosaic.Lib.ValueIdx

noncomputable section

open scoped BigOperators

namespace Cert.NormExp

open Idealize.ShloMosaic Idealize.ShloMosaic.ValueIdx

variable {ι κ : Type*} [Fintype ι] [Fintype κ]

/-- `exp (v i − sup v) / ∑ j, exp (v j − sup v)` on the extended reals, with the ideal instance's
    exponential and quotient. -/
def normExp (v : ι → EReal) (i : ι) : EReal :=
  Ideal.div (Ideal.exp (v i - ⨆ j, v j)) (∑ j, Ideal.exp (v j - ⨆ k, v k))

/-- Re-indexing the family along a bijection re-indexes the result: the supremum and the sum range over the
    same entries. -/
theorem normExp_comp_equiv (e : ι ≃ κ) (v : κ → EReal) (i : ι) :
    normExp (fun a => v (e a)) i = normExp v (e i) := by
  unfold normExp
  rw [Equiv.iSup_comp (g := v) e, Equiv.sum_comp e (fun b => Ideal.exp (v b - ⨆ k, v k))]

/-- The maximum folded from `⊥` over every index is the supremum of the family. -/
theorem fold_max_bot (f : ι → EReal) : (Finset.univ : Finset ι).fold max ⊥ f = ⨆ i, f i := by
  rw [← Finset.sup_univ_eq_iSup]
  rfl

/-- The supremum over a rank-2 index set, row by row: the supremum over the rows of each row's supremum. -/
theorem iSup_idx2 {n0 n1 : Nat} (g : (⟨2, ![n0, n1]⟩ : Shape).Idx → EReal) :
    ⨆ j, g j = ⨆ a : Fin n0, ⨆ b : Fin n1, g (ix2 a b) := by
  rw [← Equiv.iSup_comp (g := g) (idxEquiv2 (n0 := n0) (n1 := n1)).symm, iSup_prod]
  rfl

/-- A family laid out under one shape, recast to another shape of as many entries, normalised there, and the
    result recast back, is the family normalised where it was: a recast only renames the positions
    (row-major order is a bijection of the two index sets), and `normExp` does not see names. -/
theorem shapeCast_normExp_shapeCast {s t : Shape} (h1 : s.ShapeCasts t) (h2 : t.ShapeCasts s) (f : EReal → EReal)
    (v : s.Idx → EReal) :
    shapeCast s (normExp fun j => f (shapeCast t v h1 j)) h2 = normExp fun i => f (v i) := by
  funext i
  unfold shapeCast
  refine (normExp_comp_equiv (Shape.reshapeEquiv h1) (fun a => f (v a)) (Shape.reshapeEquiv h2 i)).trans ?_
  rw [Shape.reshapeEquiv_reshapeEquiv, Shape.reshapeEquiv_self]

/-- The f32 word of negative infinity is the least extended real. -/
theorem ofBits_negInf_f32 : Ideal.ofBits .f32 0xFF800000#32 = ⊥ := by
  simp [Ideal.ofBits, Ideal.ieee]

end Cert.NormExp

end
-- ==== Proof.BodyValue.lean ====
/-
  What the kernel body stores, as one function of the block it loads.

  The body takes a 32 × 128 block `x`, forms `σ = logistic x` entry by entry, takes the maximum of `σ` in two
  stages (along each row of 128 lanes, then down the column of the 32 row maxima, each stage started at −∞),
  subtracts that one number everywhere, exponentiates, sums the exponentials in the same two stages (each started
  at 0), and divides every exponential by that one sum.

  A maximum started at −∞ = ⊥ over all the positions of an axis is a supremum, and the supremum over the rows of
  the row suprema is the supremum over the whole block; likewise the sum of the row sums is the sum over the
  block. So the stored block is the normalised exponentials (`Cert.NormExp.normExp`) of the family
  `σ` indexed by the block's positions.
-/
import proofs.«177076_j47493748359370_2_alg».proof.Proof.Gen.KernelIdeal.Skeleton
import proofs.«177076_j47493748359370_2_alg».proof.Proof.LibNormExp
import Idealize.ShloMosaic.Lib.Pipeline.Value
import Idealize.ShloMosaic.Lib.ValueIdx
import Idealize.ShloMosaic.PureOps.Ideal.Laws

noncomputable section

open scoped BigOperators

namespace Cert.KernelIdeal.BodyValue

open Cert.KernelIdeal Cert.KernelIdeal.Gen Cert.NormExp
open Idealize.ShloMosaic Idealize.ShloMosaic.ValueIdx

/-! ## Layout: the one number of a [1] vector, viewed [1,1] and spread over the block -/

/-- A one-entry vector viewed as 1 × 1 and broadcast to 32 × 128 reads its one entry everywhere. -/
theorem spread_one {α : Type} (u : S1.Idx → α) (j : S32x128.Idx) :
    broadcastTo S32x128 (shapeCast S1x1 u shapeCasts_S1_S1x1) broadcasts_S1x1_S32x128 j = u (ix1 (0 : Fin 1)) := by
  refine (broadcastTo_apply _ broadcasts_S1x1_S32x128 j (ix2 (0 : Fin 1) (0 : Fin 1)) (fun a => ?_)).trans ?_
  · match a with
    | ⟨0, _⟩ => rfl
    | ⟨1, _⟩ => rfl
  · refine shapeCast_apply u shapeCasts_S1_S1x1 (ix2 (0 : Fin 1) (0 : Fin 1)) (ix1 (0 : Fin 1)) ?_
    rw [Shape.rowMajor_val_one, Shape.rowMajor_val_two]
    rfl

/-- The column view [32] → [32, 1] of a vector, read at row `k` of the one column, is entry `k`. -/
theorem column_read {α : Type} (w : S32.Idx → α) (k : Fin 32) :
    shapeCast S32x1 w shapeCasts_S32_S32x1 (reduces_S32x1_S1.lift (ix1 (0 : Fin 1)) k) = w (ix1 k) := by
  refine shapeCast_apply w shapeCasts_S32_S32x1 _ (ix1 k) ?_
  rw [Shape.rowMajor_val_one, Shape.rowMajor_val_two]
  show k.val = k.val * 1 + 0
  omega

/-- Row `r` with lane `l` put back is the position (r, l). -/
theorem row_lift (r : Fin 32) (l : Fin 128) : reduces_S32x128_S32.lift (ix1 r) l = ix2 r l := by
  funext a
  match a with
  | ⟨0, _⟩ => rfl
  | ⟨1, _⟩ => rfl

/-! ## The two reductions, each in its two stages -/

/-- The maximum along a row, started at −∞, is the supremum of the row. -/
theorem row_max (σ : FVec Ideal S32x128 .f32) (r : Fin 32) :
    multiReduction .maximumf [1] S32 σ 0xFF800000#32 reduces_S32x128_S32 (.inl rfl) rfl (ix1 r)
      = ⨆ l : Fin 128, σ (ix2 r l) := by
  refine (Ideal.multiReduction_maximumf_single σ 0xFF800000#32 reduces_S32x128_S32 (.inl rfl) rfl (ix1 r)).trans ?_
  rw [Ideal.ofBits_def, ofBits_negInf_f32]
  refine (fold_max_bot _).trans ?_
  exact iSup_congr fun l => congrArg σ (row_lift r l)

/-- The maximum down the column of a vector's entries, started at −∞, is the supremum of the entries. -/
theorem column_max (w : FVec Ideal S32 .f32) :
    multiReduction .maximumf [0] S1 (shapeCast S32x1 w shapeCasts_S32_S32x1) 0xFF800000#32 reduces_S32x1_S1 (.inl rfl) rfl
        (ix1 (0 : Fin 1))
      = ⨆ k : Fin 32, w (ix1 k) := by
  refine (Ideal.multiReduction_maximumf_single (shapeCast S32x1 w shapeCasts_S32_S32x1) 0xFF800000#32 reduces_S32x1_S1
    (.inl rfl) rfl (ix1 (0 : Fin 1))).trans ?_
  rw [Ideal.ofBits_def, ofBits_negInf_f32]
  refine (fold_max_bot _).trans ?_
  exact iSup_congr fun k => column_read w k

/-- The sum along a row, started at 0, is the sum of the row. -/
theorem row_sum (e : FVec Ideal S32x128 .f32) (r : Fin 32) :
    multiReduction .add [1] S32 e 0x00000000#32 reduces_S32x128_S32 (.inl rfl) rfl (ix1 r)
      = ∑ l : Fin 128, e (ix2 r l) := by
  refine (Ideal.multiReduction_add_single e 0x00000000#32 reduces_S32x128_S32 (.inl rfl) rfl (ix1 r)).trans ?_
  exact Finset.sum_congr rfl fun l _ => congrArg e (row_lift r l)

/-- The sum down the column of a vector's entries, started at 0, is the sum of the entries. -/
theorem column_sum (w : FVec Ideal S32 .f32) :
    multiReduction .add [0] S1 (shapeCast S32x1 w shapeCasts_S32_S32x1) 0x00000000#32 reduces_S32x1_S1 (.inl rfl) rfl
        (ix1 (0 : Fin 1))
      = ∑ k : Fin 32, w (ix1 k) := by
  refine (Ideal.multiReduction_add_single (shapeCast S32x1 w shapeCasts_S32_S32x1) 0x00000000#32 reduces_S32x1_S1
    (.inl rfl) rfl (ix1 (0 : Fin 1))).trans ?_
  exact Finset.sum_congr rfl fun k _ => column_read w k

/-- The two-stage maximum, spread back over the block, is the supremum of the block at every position. -/
theorem block_max (σ : FVec Ideal S32x128 .f32) :
    broadcastTo S32x128 (shapeCast S1x1 (multiReduction .maximumf [0] S1
        (shapeCast S32x1 (multiReduction .maximumf [1] S32 σ 0xFF800000#32 reduces_S32x128_S32 (.inl rfl) rfl) shapeCasts_S32_S32x1)
        0xFF800000#32 reduces_S32x1_S1 (.inl rfl) rfl) shapeCasts_S1_S1x1) broadcasts_S1x1_S32x128
      = fun _ => ⨆ i, σ i := by
  funext j
  refine (spread_one _ j).trans ?_
  refine (column_max _).trans ?_
  refine (iSup_congr fun k => row_max σ k).trans ?_
  exact (iSup_idx2 σ).symm

/-- The two-stage sum, spread back over the block, is the sum over the block at every position. -/
theorem block_sum (e : FVec Ideal S32x128 .f32) :
    broadcastTo S32x128 (shapeCast S1x1 (multiReduction .add [0] S1
        (shapeCast S32x1 (multiReduction .add [1] S32 e 0x00000000#32 reduces_S32x128_S32 (.inl rfl) rfl) shapeCasts_S32_S32x1)
        0x00000000#32 reduces_S32x1_S1 (.inl rfl) rfl) shapeCasts_S1_S1x1) broadcasts_S1x1_S32x128
      = fun _ => ∑ i, e i := by
  funext j
  refine (spread_one _ j).trans ?_
  refine (column_sum _).trans ?_
  refine (Finset.sum_congr rfl fun k _ => row_sum e k).trans ?_
  exact (sum_idx2 e).symm

/-! ## The stored block -/

/-- The block the body stores is the normalised exponentials of the logistic values of the block it loads. -/
theorem stored_eq (x : FVec Ideal S32x128 .f32) :
    k0_pay1 (F := Ideal) x = normExp fun j => Ideal.logistic (x j) := by
  unfold k0_pay1
  dsimp only
  rw [shapeCast_self, block_max, block_sum]
  rfl

end Cert.KernelIdeal.BodyValue

end
-- ==== Proof.KernelRun.lean ====
/-
  The idealized kernel's run, read as a value.

  The host lines before the kernel compute the 4096 segment sums `segSums` of the four arguments (gather,
  product with the weights, scatter-add into zeros — kept as one opaque function here) and recast them as a
  32 × 128 array. The kernel's grid has one point, whose one block is that whole array and whose output block is
  the whole 32 × 128 result: so the result array ends holding what the body stores of the input array
  (`BodyValue.stored_eq`: the normalised exponentials of its logistic values). The one host line after the
  kernel recasts the result to 4096 entries.
-/
import proofs.«177076_j47493748359370_2_alg».proof.Proof.Gen.KernelIdeal.Frame
import proofs.«177076_j47493748359370_2_alg».proof.Proof.BodyValue
import Idealize.ShloMosaic.Lib.Pipeline.Value
import Idealize.ShloMosaic.Lib.StableHlo.Run

noncomputable section

namespace Cert.KernelIdeal.RunValue

open Cert.KernelIdeal Cert.KernelIdeal.Gen Cert.KernelIdeal.BodyValue Cert.NormExp
open Idealize.ShloMosaic Idealize.ShloMosaic.TcCoe Idealize.SL.Sem Idealize.ShloMosaic.StableHlo
open Idealize.ShloMosaic.Pipeline (Dat)

/-- The segment sums: entry `d` is the sum, over the edges whose destination is `d`, of the source node's value
    (the source index wrapped when negative, as array indexing does) times the edge's weight — the host's gather,
    product and scatter-add into zeros, as one function of the four arguments. -/
def segSums (a0 : (⟨S1000000, .f32⟩ : BufTy).Contents (Elt Ideal)) (a1 : (⟨S20000000, .f32⟩ : BufTy).Contents (Elt Ideal))
    (a2 a3 : (⟨S20000000, .i32⟩ : BufTy).Contents (Elt Ideal)) : (⟨S4096, .f32⟩ : BufTy).Contents (Elt Ideal) :=
  Host.scatterAdd scatter_S4096_S20000000x1_S20000000_n_0_0_1
    (broadcastInDim S4096 ![] bcast_S_S4096 (constant (F := Ideal) S_ .f32 0x00000000#32))
    (broadcastInDim S20000000x1 ![0] bcast_S20000000_S20000000x1_0 a3)
    (mulf (Host.gather gather_S1000000_S20000000x1_S20000000_n_0_n_n_0_1_1 a0
      (broadcastInDim S20000000x1 ![0] bcast_S20000000_S20000000x1_0
        (select (cmpi .slt a2 (broadcastInDim S20000000 ![] bcast_S_S20000000 (constantI S_ 32 0#32)))
          (addi a2 (broadcastInDim S20000000 ![] bcast_S_S20000000 (constantI S_ 32 1000000#32))) a2))) a1)

variable (m : (ℓ : Loc nD τ sig) → Buf (Elt Ideal) ℓ) (ρ : Dev nD → PrngReg)

/-- The segment sums of the arguments as launched on core `c`. -/
abbrev sums (c : Dev nD) : (⟨S4096, .f32⟩ : BufTy).Contents (Elt Ideal) :=
  segSums (m ((c : Thread nD τ).loc main_arg0)) (m ((c : Thread nD τ).loc main_arg1))
    (m ((c : Thread nD τ).loc main_arg2)) (m ((c : Thread nD τ).loc main_arg3))

/-- The array the kernel reads, as it finds it: the segment sums recast 32 × 128. -/
theorem entry_array (c : Dev nD) :
    (V m c main_v11 : S32x128.Idx → EReal) = shapeCast S32x128 (sums m c) shapeCasts_S4096_S32x128 := by
  show StableHlo.after hostOps0 (fun b => m (c, b)) (Proc.devRef .tc main_v11) = _
  after_results
  rfl

/-- What the result array holds after the kernel: the normalised exponentials of the logistic values of the array
    the kernel read. -/
abbrev resultArray (c : Dev nD) : S32x128.Idx → EReal :=
  normExp fun j => Ideal.logistic (V m c main_v11 j)

theorem zero_offsets : (![0, 0] : Fin 2 → Nat) = fun _ => 0 := funext fun a => by fin_cases a <;> rfl

/-- Both windows' one block sits at block index (0, 0). -/
theorem block_index : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The point's input block is the whole array the kernel reads, whatever that array holds. -/
theorem read_whole_in (c : Dev nD) (t : Fin cfg0.N) (X : Buf (Elt Ideal) ((c : Thread nD τ).loc main_v11)) :
    ((cfg0.win 0).blk t).view.read (Elt Ideal) X = X := by
  obtain ⟨e0, e1, -, -⟩ := block_index t
  funext j
  show X (((cfg0.win 0).blk t).view.emb j) = X j
  refine congrArg X ?_
  funext a; apply Fin.ext
  match a with
  | ⟨0, _⟩ => show win0_0.index t (0 : Fin 2) * 32 + 1 * (j 0).val = (j 0).val; omega
  | ⟨1, _⟩ => show win0_0.index t (1 : Fin 2) * 128 + 1 * (j 1).val = (j 1).val; omega

/-- The point's output block is the whole result array: a 32 × 128 function cut to the block, and the block of the
    same function laid over the array, are one function. -/
theorem whole_block (t : Fin cfg0.N) (G : S32x128.Idx → EReal) :
    (cfg0.win 1).cut (grid0.coords t) G = ((cfg0.win 1).blk t).view.read (Elt Ideal) G := by
  obtain ⟨-, -, e2, e3⟩ := block_index t
  funext j
  show G ((cfg0.win 1).xinj (grid0.coords t) j) = G (((cfg0.win 1).blk t).view.emb j)
  refine congrArg G ?_
  funext a; apply Fin.ext
  match a with
  | ⟨0, _⟩ => show (j 0).val = win0_1.index t (0 : Fin 2) * 32 + 1 * (j 0).val; omega
  | ⟨1, _⟩ => show (j 1).val = win0_1.index t (1 : Fin 2) * 128 + 1 * (j 1).val; omega

/-- WHAT THE POINT WRITES BACK is its block — the whole — of `resultArray`. -/
theorem flushed_eq (c : Dev nD) (t : Fin cfg0.N) :
    (dats m 0 c).flushed 1 t = ((cfg0.win 1).blk t).view.read (Elt Ideal) (resultArray m c) := by
  show (cfg0.win 1).cut (grid0.coords t) ((dats m 0 c).after 1 t) = _
  rw [after0_1]
  unfold out0_1
  rw [View.canon_unit_zero zero_offsets]
  simp only [View.ld_unit_zero (S := S32x128) zero_offsets]
  have hblk : iblk m c 0 t = V m c main_v11 := read_whole_in c t (V m c main_v11)
  rw [hblk, stored_eq]
  exact whole_block t _

/-- An index of the result array is in the point's block iff each coordinate is in the block's range. -/
theorem mem_blk (t : Fin cfg0.N) (i : S32x128.Idx) :
    i ∈ ((cfg0.win 1).blk t).view.set ↔ ∀ a : Fin 2, win0_1.index t a * S32x128.size a ≤ (i a).val
      ∧ (i a).val < win0_1.index t a * S32x128.size a + S32x128.size a := by
  show i ∈ ((View.whole main_v12).slice (win0_1.rect t)).set ↔ _
  rw [View.set_slice_whole, Rect.mem_set_unit]
  exact Iff.rfl

/-- The one block is the whole result array. -/
theorem cover (i : S32x128.Idx) : ∃ t : Fin cfg0.N, (cfg0.win 1).flush t = true ∧ i ∈ ((cfg0.win 1).blk t).view.set := by
  refine ⟨t0_0, flush0_1 t0_0, ?_⟩
  rw [mem_blk]
  obtain ⟨-, -, e2, e3⟩ := block_index t0_0
  have hi0 : (i 0).val < 32 := (i 0).isLt
  have hi1 : (i 1).val < 128 := (i 1).isLt
  intro a
  match a with
  | ⟨0, _⟩ => show win0_1.index t0_0 (0 : Fin 2) * 32 ≤ (i 0).val ∧ (i 0).val < win0_1.index t0_0 (0 : Fin 2) * 32 + 32; omega
  | ⟨1, _⟩ => show win0_1.index t0_0 (1 : Fin 2) * 128 ≤ (i 1).val ∧ (i 1).val < win0_1.index t0_0 (1 : Fin 2) * 128 + 128; omega

/-- THE RESULT ARRAY after the kernel. -/
theorem final (c : Dev nD) : (dats m 0 c).arrAt 1 cfg0.N = resultArray m c :=
  (dats m 0 c).arrAt_eq_of_cover 1 (resultArray m c) (fun t _ => flushed_eq m c t) cover

/-- THE PROGRAM'S RESULT after the host line that follows the kernel: the result array recast to 4096 entries. -/
theorem tail_result (c : Dev nD) :
    Pipeline.afterTail₀ cfgs (dats m) 0 (V0 m) [hostOps1] c main_v13
      = shapeCast S4096 (resultArray m c) shapeCasts_S32x128_S4096 := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v12)
      = resultArray m c :=
    (Pipeline.withArrays_arr spec0 launch0.win.arr_inj c _ _ 1).trans (final m c)
  rw [hw]
  generalize resultArray m c = R
  rfl

/-- THE PROGRAM'S RESULT as one function of the arguments: the segment sums are recast 32 × 128, normalised there,
    and recast back — a recast only renames positions, so this is the normalised exponentials of the logistic values
    of the segment sums themselves. -/
theorem result_closed (c : Dev nD) :
    shapeCast S4096 (resultArray m c) shapeCasts_S32x128_S4096 = normExp fun i => Ideal.logistic (sums m c i) := by
  show shapeCast S4096 (normExp fun j => Ideal.logistic (V m c main_v11 j)) shapeCasts_S32x128_S4096 = _
  rw [entry_array]
  exact shapeCast_normExp_shapeCast shapeCasts_S4096_S32x128 shapeCasts_S32x128_S4096 Ideal.logistic (sums m c)

/-- THE RUN, READ: every weakly fair execution of the idealized kernel program terminates with its result at that
    function of the arguments, and the arguments unchanged. -/
theorem run : θ_run defs (onTc (τ := τ) (main (F := Ideal))) ⟨m, fun _ => 0, ρ⟩ fun r => ∀ c : Dev nD,
      r.2.mem ((c.tc : Thread nD τ).loc main_v13) = (normExp fun i => Ideal.logistic (sums m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v13 (Pipeline.mem_restRefs_of main_v13 (by decide) (by decide))).trans (tail_result m c)).trans
        (result_closed m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.RefValue.lean ====
/-
  What the reference returns, as one function of the segment sums.

  After the gather, the product with the weights and the scatter-add (the 4096 segment sums `s`, which this
  module never opens), the reference forms `1 / (1 + exp (−s))` entry by entry — the logistic function, by its
  definition on the extended reals —, takes its maximum over all 4096 entries started at −∞ (and once more
  against −∞, which changes nothing), subtracts it everywhere, exponentiates, sums the exponentials from 0, and
  divides each exponential by that sum: the normalised exponentials (`Cert.NormExp.normExp`) of the
  logistic values of `s`.
-/
import proofs.«177076_j47493748359370_2_alg».proof.Proof.Gen.ReferenceIdeal.Read
import proofs.«177076_j47493748359370_2_alg».proof.Proof.LibNormExp
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.Read Cert.NormExp
open Idealize.ShloMosaic Idealize.ShloMosaic.ValueIdx

variable (x0 : (⟨S1000000, .f32⟩ : BufTy).Contents (Elt Ideal)) (x1 : (⟨S20000000, .f32⟩ : BufTy).Contents (Elt Ideal))
  (x2 x3 : (⟨S20000000, .i32⟩ : BufTy).Contents (Elt Ideal))

/-- The quotient `1 / (1 + exp (−s))` the reference spells out is the logistic function of the segment sum. -/
theorem logistic_stage (i : S4096.Idx) :
    val_main_v16 (F := Ideal) x0 x1 x2 x3 i = Ideal.logistic (val_main_v10 (F := Ideal) x0 x1 x2 x3 i) := by
  rw [val_main_v16_apply, val_main_v15_apply, val_main_cst_2_apply, val_main_v14_apply, val_main_v13_apply,
    val_main_cst_1_apply, val_main_v12_apply, val_main_v11_apply]
  simp only [Ideal.hostDivf_def, Ideal.addf_def, Ideal.hostUnary_exp_def, Ideal.hostNegf_def, Ideal.negf_def,
    Ideal.ofBits_def, Ideal.ofBits_one_f32]
  rfl

/-- A maximum over every entry of a vector, started at ⊥, is the supremum of the entries. -/
theorem all_max (y : FVec Ideal S4096 .f32) (init : FVec Ideal S_ .f32) (hinit : init (Shape.Idx.first h_S_) = ⊥) (u : S_.Idx) :
    Host.reduce FloatOps.maximumf y init reducesTo_S4096_S_d0 h_S_ u = ⨆ i, y i := by
  refine (Host.reduce_eq_fold FloatOps.maximumf y init reducesTo_S4096_S_d0 h_S_ u).trans ?_
  rw [Finset.filter_true_of_mem fun i _ => funext fun b => b.elim0, hinit]
  exact fold_max_bot y

/-- The constant the maximum starts from is −∞, the least extended real. -/
theorem start_bot : val_main_cst_3 (F := Ideal) (Shape.Idx.first h_S_) = ⊥ := by
  rw [val_main_cst_3_apply, Ideal.ofBits_def, ofBits_negInf_f32]

/-- The maximum over all entries started at −∞, taken once more against −∞, is the supremum of the entries. -/
theorem max_stage (u : S_.Idx) :
    val_main_v18 (F := Ideal) x0 x1 x2 x3 u = ⨆ i, val_main_v16 (F := Ideal) x0 x1 x2 x3 i := by
  rw [val_main_v18_apply, val_main_cst_4_apply]
  unfold val_main_v17
  generalize val_main_v16 (F := Ideal) x0 x1 x2 x3 = y
  refine (congrArg (FloatOps.maximumf (FloatOps.ofBits (F := Ideal) .f32 0xFF800000#32)) (all_max y _ start_bot u)).trans ?_
  rw [Ideal.ofBits_def, ofBits_negInf_f32]
  exact max_eq_right bot_le

/-- The sum of all entries started at 0 is their sum. -/
theorem sum_stage (u : S_.Idx) :
    val_main_v23 (F := Ideal) x0 x1 x2 x3 u = ∑ j, val_main_v22 (F := Ideal) x0 x1 x2 x3 j := by
  rw [val_main_v23_apply, val_main_cst_5_apply]
  simp only [Ideal.ofBits_def, Ideal.ofBits_zero_f32, zero_add]

/-- Each exponential: of the logistic value less the supremum of the logistic values. -/
theorem exp_stage (j : S4096.Idx) :
    val_main_v22 (F := Ideal) x0 x1 x2 x3 j
      = Ideal.exp (Ideal.logistic (val_main_v10 (F := Ideal) x0 x1 x2 x3 j)
          - ⨆ k, Ideal.logistic (val_main_v10 (F := Ideal) x0 x1 x2 x3 k)) := by
  have hmax : val_main_v20 (F := Ideal) x0 x1 x2 x3 j
      = ⨆ k, Ideal.logistic (val_main_v10 (F := Ideal) x0 x1 x2 x3 k) := by
    rw [val_main_v20_apply, val_main_v19_apply]
    refine (max_stage x0 x1 x2 x3 _).trans ?_
    exact iSup_congr fun k => logistic_stage x0 x1 x2 x3 k
  rw [val_main_v22_apply, val_main_v21_apply, hmax, logistic_stage]
  generalize Ideal.logistic (val_main_v10 (F := Ideal) x0 x1 x2 x3 j) = a
  generalize (⨆ k, Ideal.logistic (val_main_v10 (F := Ideal) x0 x1 x2 x3 k)) = b
  rfl

/-- THE REFERENCE'S RESULT: the normalised exponentials of the logistic values of the segment sums. -/
theorem result_eq :
    val_main_v26 (F := Ideal) x0 x1 x2 x3 = normExp fun i => Ideal.logistic (val_main_v10 (F := Ideal) x0 x1 x2 x3 i) := by
  funext i
  rw [val_main_v26_apply, val_main_v25_apply, val_main_v24_apply, sum_stage, exp_stage]
  simp only [Ideal.hostDivf_def, exp_stage]
  rfl

end Cert.ReferenceIdeal.RefValue

end
-- ==== Proof.lean ====
/-
  The kernel program and the reference compute one function on the extended reals.

  Both programs begin with the same host lines: gather the source node values, multiply by the edge weights, and
  scatter-add into 4096 zeros — the segment sums `s`. From there:

  * the reference takes `σ = 1 / (1 + exp (−s))` (the logistic function), subtracts the maximum of `σ` over its
    4096 entries, exponentiates, and divides by the sum of the exponentials;
  * the kernel program recasts `s` as 32 × 128, and in one grid point takes `σ = logistic s`, the maximum of `σ`
    in two stages (along each row, then over the row maxima), the exponentials of `σ` less that maximum, their sum in
    the same two stages, and the quotients; the result is recast to 4096 entries.

  A maximum started at −∞ is a supremum and the supremum of the row suprema is the supremum of all entries; the sum
  of the row sums is the sum of all entries; and recasting only renames positions. So both results are the
  normalised exponentials `exp (σ i − sup σ) / ∑ j, exp (σ j − sup σ)` of the logistic values of the segment sums
  (`Cert.NormExp.normExp`). Only commutativity and associativity of `max` and `+` are used, which hold on all of
  the extended reals: the precondition (finite inputs) is never opened.

  The kernel's idealization rewrote nothing, so its `preserves` claim is `True`. The frames of the two kernel
  programs are the generated ones; the reference's frame is its generated run with the result dropped.
-/
import proofs.«177076_j47493748359370_2_alg».proof.Defs
import proofs.«177076_j47493748359370_2_alg».proof.Proof.Gen.Kernel
import proofs.«177076_j47493748359370_2_alg».proof.Proof.Gen.Kernel.Skeleton
import proofs.«177076_j47493748359370_2_alg».proof.Proof.Gen.Kernel.Launch
import proofs.«177076_j47493748359370_2_alg».proof.Proof.Gen.Kernel.Points
import proofs.«177076_j47493748359370_2_alg».proof.Proof.Gen.Kernel.Frame
import proofs.«177076_j47493748359370_2_alg».proof.Proof.Gen.KernelIdeal
import proofs.«177076_j47493748359370_2_alg».proof.Proof.Gen.KernelIdeal.Skeleton
import proofs.«177076_j47493748359370_2_alg».proof.Proof.Gen.KernelIdeal.Launch
import proofs.«177076_j47493748359370_2_alg».proof.Proof.Gen.KernelIdeal.Points
import proofs.«177076_j47493748359370_2_alg».proof.Proof.Gen.KernelIdeal.Frame
import proofs.«177076_j47493748359370_2_alg».proof.Proof.Gen.ReferenceIdeal
import proofs.«177076_j47493748359370_2_alg».proof.Proof.Gen.Pre_finite_inputs
import proofs.«177076_j47493748359370_2_alg».proof.Proof.Gen.ReferenceIdeal.Run
import proofs.«177076_j47493748359370_2_alg».proof.Proof.Gen.ReferenceIdeal.Read
import proofs.«177076_j47493748359370_2_alg».proof.Proof.KernelRun
import proofs.«177076_j47493748359370_2_alg».proof.Proof.RefValue
import Idealize.ShloMosaic.Adequacy
import Idealize.ShloMosaic.Init

noncomputable section

namespace Cert.Proof

open Idealize.ShloMosaic Idealize.SL.Sem Cert.NormExp

/-- The segment sums the kernel program's host lines compute are the reference's: the same gather, product and
    scatter-add of the same four arguments. -/
theorem sums_eq (a0 : (⟨Cert.ReferenceIdeal.S1000000, .f32⟩ : BufTy).Contents (Elt Ideal))
    (a1 : (⟨Cert.ReferenceIdeal.S20000000, .f32⟩ : BufTy).Contents (Elt Ideal))
    (a2 a3 : (⟨Cert.ReferenceIdeal.S20000000, .i32⟩ : BufTy).Contents (Elt Ideal)) :
    Cert.KernelIdeal.RunValue.segSums a0 a1 a2 a3 = Cert.ReferenceIdeal.Read.val_main_v10 (F := Ideal) a0 a1 a2 a3 := by
  unfold Cert.KernelIdeal.RunValue.segSums Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_cst Cert.ReferenceIdeal.Read.val_main_c Cert.ReferenceIdeal.Read.val_main_c_0
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at the normalised exponentials of the logistic values
    of the segment sums of those arguments. -/
theorem algebraic : Cert.algebraic_KernelIdeal_ReferenceIdeal := by
  intro m ρ m' ρ' _ hagree
  refine ⟨fun c => normExp fun i => Ideal.logistic (Cert.KernelIdeal.RunValue.sums m c i),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq,
    (hagree c).1, (hagree c).2.1, (hagree c).2.2.1, (hagree c).2.2.2]
  dsimp only [Cert.KernelIdeal.RunValue.sums]
  rw [sums_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
